-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1024x1024 : Shape := ⟨2, ![1024, 1024]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S1024x1024 .f32) (main_arg5 : FVec F S4096 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x4096 .f32) (main_arg1 : FVec F S1024x1024 .f32) (main_arg2 : FVec F S1024x1024 .f32) (main_arg3 : FVec F S1024x1024 .f32) (main_arg4 : FVec F S1024x1024 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8192x4096 : Shape := ⟨2, ![8192, 4096]⟩
abbrev S1024x1024 : Shape := ⟨2, ![1024, 1024]⟩
abbrev S4096 : Shape := ⟨1, ![4096]⟩
abbrev S4096x1024 : Shape := ⟨2, ![4096, 1024]⟩
abbrev S4096x4096 : Shape := ⟨2, ![4096, 4096]⟩
abbrev S1x4096 : Shape := ⟨2, ![1, 4096]⟩
abbrev S512x4096 : Shape := ⟨2, ![512, 4096]⟩
abbrev S4096x512 : Shape := ⟨2, ![4096, 512]⟩
abbrev S1x512 : Shape := ⟨2, ![1, 512]⟩
abbrev S512x512 : Shape := ⟨2, ![512, 512]⟩

abbrev nBuf : Space → Nat
  | .hbm => 21
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S4096x4096, .f32⟩
  | .hbm, ⟨17, _⟩ => ⟨S8192x4096, .bf16⟩
  | .hbm, ⟨18, _⟩ => ⟨S4096x4096, .bf16⟩
  | .hbm, ⟨19, _⟩ => ⟨S1x4096, .f32⟩
  | .hbm, ⟨20, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  concatenates_S1024x1024_S1024x1024_S1024x1024_S1024x1024_S4096x1024_d0 : Shape.Concatenates [S1024x1024, S1024x1024, S1024x1024, S1024x1024] S4096x1024 0
  concatenates_S4096x1024_S4096x1024_S4096x1024_S4096x1024_S4096x4096_d1 : Shape.Concatenates [S4096x1024, S4096x1024, S4096x1024, S4096x1024] S4096x4096 1
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x4096.size a
  hwx0_3 : ∀ i : grid0.Coords, EltTy.bits .f32 = 32 ∨ (Rect.block (s := S8192x4096) S512x512.size (cc0_transform_3 i) (hinb0_3 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_v11) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1024x1024 : Shape := ⟨2, ![1024, 1024]⟩
abbrev S4096 : Shape := ⟨1, ![4096]⟩
abbrev S4096x1024 : Shape := ⟨2, ![4096, 1024]⟩
abbrev S4096x4096 : Shape := ⟨2, ![4096, 4096]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S4096x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S4096x1024_S4096x1024_S4096x1024_S4096x1024_S4096x4096_d1 : Shape.Concatenates [S4096x1024, S4096x1024, S4096x1024, S4096x1024] S4096x4096 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KernelFrame.lean ====
/-
  The frame of `Kernel`: the program runs to its end without a fault and leaves its six argument arrays as it found
  them, at any float instance.

  @main is fourteen host operations — three negations and five concatenations that lay the four 1024x1024 quaternion
  components out as the 4096x4096 Hamilton block matrix, a change of float format of the input rows and of that
  matrix, and the bias re-read as one row — followed by one region on a 16 x 8 grid.  None of the host operations
  writes an argument array, and the region stages only arrays the host operations produced (the re-formatted rows,
  the re-formatted matrix, the bias row) and its own result; so every argument array is, at the end, what the region
  found, which is what the program was launched with.

  At grid point (i, j) the body reads the i-th block of 512 rows, the j-th block of 512 columns and the j-th block of
  512 bias entries, and stores one 512x512 tile covering its output block: the product of the two blocks plus the
  bias row repeated down the tile.  The tile is named here as a function of the three blocks read, for the value
  argument to open later.
-/
import proofs.«108264_j31138512896843_1_alg».proof.Proof.Gen.Kernel.Launch
import proofs.«108264_j31138512896843_1_alg».proof.Proof.Gen.Kernel.Skeleton
import proofs.«108264_j31138512896843_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## From the launch to the region -/

/-- What core `c`'s buffers hold when the region is entered: the launch contents after the fourteen host operations. -/
abbrev atEntry (c : Dev nD) (b : Ref sig .tc) : Buf (Elt F) ((c : Thread nD τ).loc b) :=
  StableHlo.after hostOps0 (fun b => m (c, b)) b

/-- No host operation allocates. -/
theorem hostOps_allocate_nothing : (hostOps0 : List (HloOp τ sig (Elt F))).Forall fun op => op.fresh = ∅ := by
  simp only [List.Forall]; repeat' constructor

/-- @main is the host operations, then the region, which therefore starts from `atEntry`. -/
theorem main_reaches_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps_allocate_nothing main_chain

/-- A buffer that is the result of none of the fourteen host operations is found by the region as launched. -/
theorem atEntry_of_not_result (c : Dev nD) (b : Ref sig .tc)
    (h : ∀ op ∈ (hostOps0 : List (HloOp τ sig (Elt F))), Proc.devRef .tc b ∉ op.writes) :
    atEntry m c b = m ((c : Thread nD τ).loc b) :=
  StableHlo.after_of_forall_not_mem (b := Proc.devRef .tc b) _ _ h

/-! ## The argument arrays at the region's entry -/

/-- Decides that a given argument array is the result of no host operation: each operation writes exactly its
    result buffer, and that buffer is never an argument. -/
local macro "not_a_host_result" : tactic => `(tactic| (
  refine List.forall_iff_forall_mem.mp ?_
  simp only [hostOps0, List.Forall, StableHlo.unary_writes, StableHlo.nary_writes, StableHlo.reshape_writes,
    Finset.mem_singleton]
  repeat' apply And.intro
  all_goals exact StableHlo.devRef_ne_of_ne (by decide)))

theorem atEntry_arg0 (c : Dev nD) : atEntry m c main_arg0 = m ((c : Thread nD τ).loc main_arg0) :=
  atEntry_of_not_result m c main_arg0 (by not_a_host_result)
theorem atEntry_arg1 (c : Dev nD) : atEntry m c main_arg1 = m ((c : Thread nD τ).loc main_arg1) :=
  atEntry_of_not_result m c main_arg1 (by not_a_host_result)
theorem atEntry_arg2 (c : Dev nD) : atEntry m c main_arg2 = m ((c : Thread nD τ).loc main_arg2) :=
  atEntry_of_not_result m c main_arg2 (by not_a_host_result)
theorem atEntry_arg3 (c : Dev nD) : atEntry m c main_arg3 = m ((c : Thread nD τ).loc main_arg3) :=
  atEntry_of_not_result m c main_arg3 (by not_a_host_result)
theorem atEntry_arg4 (c : Dev nD) : atEntry m c main_arg4 = m ((c : Thread nD τ).loc main_arg4) :=
  atEntry_of_not_result m c main_arg4 (by not_a_host_result)
theorem atEntry_arg5 (c : Dev nD) : atEntry m c main_arg5 = m ((c : Thread nD τ).loc main_arg5) :=
  atEntry_of_not_result m c main_arg5 (by not_a_host_result)

/-! ## Blocks -/

/-- The block of window `w`'s array that grid point `t` addresses, read off the array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (atEntry m c (Pipeline.arrRef spec0 w))

/-! ## The tile the body stores -/

abbrev rowsRect : Rect S512x4096 := Rect.unit (s := S512x4096) ![0, 0] S512x4096.size inb_S512x4096_S512x4096_0_0
abbrev colsRect : Rect S4096x512 := Rect.unit (s := S4096x512) ![0, 0] S4096x512.size inb_S4096x512_S4096x512_0_0
abbrev biasRect : Rect S1x512 := Rect.unit (s := S1x512) ![0, 0] S1x512.size inb_S1x512_S1x512_0_0
abbrev tileRect : Rect S512x512 := Rect.unit (s := S512x512) ![0, 0] S512x512.size inb_S512x512_S512x512_0_0

/-- The output buffer after the body, as a function of the three blocks it read: one store of the whole tile, the
    product of the row block and the column block plus the bias row. -/
def tile (rows : Vec F S512x4096 .bf16) (cols : Vec F S4096x512 .bf16) (bias : Vec F S1x512 .f32) : Vec F S512x512 .f32 :=
  View.canon [⟨tileRect, k0_pay1 (View.ld rows rowsRect) (View.ld cols colsRect) (View.ld bias biasRect)⟩]

/-- That one store covers the buffer. -/
theorem tile_covers (p : Vec F S512x512 .f32) (y : S512x512.Idx) :
    ∃ pc ∈ ([⟨tileRect, p⟩] : List (View.Piece (Elt F) S512x512 .f32)), y ∈ pc.1.set :=
  View.cover_of_tiled [⟨tileRect, p⟩] S512x512.size (by rfl) y

/-! ## The body -/

set_option maxHeartbeats 1000000 in
/-- The body, on whole staging buffers holding `rows`, `cols`, `bias` and anything in the output's, returns with the
    three inputs as they were and the output's buffer holding `tile rows cols bias`. -/
theorem body_spec (c : Dev nD) (E : Set ℕ) (i : grid0.Coords)
    (arg2 : Memref sig .tc .vmem S512x4096 .bf16) (harg2 : arg2.IsWhole)
    (arg3 : Memref sig .tc .vmem S4096x512 .bf16) (harg3 : arg3.IsWhole)
    (arg4 : Memref sig .tc .vmem S1x512 .f32) (harg4 : arg4.IsWhole)
    (arg5 : Memref sig .tc .vmem S512x512 .f32) (harg5 : arg5.IsWhole)
    (rows : Vec F S512x4096 .bf16) (cols : Vec F S4096x512 .bf16) (bias : Vec F S1x512 .f32) (K : PUnit → sProp 𝕄) :
    iprop(owns (c : Thread nD τ) arg2 fullShare rows ∗ owns (c : Thread nD τ) arg3 fullShare cols
        ∗ owns (c : Thread nD τ) arg4 fullShare bias ∗ (∃ d, owns (c : Thread nD τ) arg5 fullShare d)
        ∗ (iprop(owns (c : Thread nD τ) arg2 fullShare rows ∗ owns (c : Thread nD τ) arg3 fullShare cols
            ∗ owns (c : Thread nD τ) arg4 fullShare bias ∗ owns (c : Thread nD τ) arg5 fullShare (tile rows cols bias)) -∗ K ⟨⟩))
      ⊢ wp frame (wpE (defs₀ (F := F)) Variants.none c none) E
          (cc0__matmul_bias_kernel i arg2 harg2 arg3 harg3 arg4 harg4 arg5 harg5) K := by
  simp only [cc0__matmul_bias_kernel_eq_skeleton]; unfold cc0__matmul_bias_kernel_skel
  unfold owns
  iintro ⟨⟨%f2, %hf2, H2⟩, ⟨%f3, %hf3, H3⟩, ⟨%f4, %hf4, H4⟩, ⟨%d5, %f5, -, H5⟩, Hk⟩
  subst hf2 hf3 hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_covers _)

/-! ## The proof data of the pipeline -/

/-- An input window's current staging buffer holds the window's block at every point, whether the point fetched it or
    kept it from the point before (an unfetched block's index has not moved): for any proof data over the entry
    contents whose body leaves the block in place. The three input windows are uncut and never idle. -/
theorem rows_staged {c : Dev nD} (dat : Dat τ (Elt F) Unit ℕ (UR sig nD τ) ℕ cfg0 c)
    (hA : dat.A 0 = atEntry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)
theorem cols_staged {c : Dev nD} (dat : Dat τ (Elt F) Unit ℕ (UR sig nD τ) ℕ cfg0 c)
    (hA : dat.A 1 = atEntry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)
theorem bias_staged {c : Dev nD} (dat : Dat τ (Elt F) Unit ℕ (UR sig nD τ) ℕ cfg0 c)
    (hA : dat.A 2 = atEntry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)

/-- The pipeline's proof data on core `c`: the arrays as the region finds them; after the body at point `t` each input
    buffer still at its block and the output buffer at the tile of the three blocks; the invariant is the scoped rest
    and the generator register, which the body never touches; full shares, nothing owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => tile (blockAt m c 0 t) (blockAt m c 1 t) (blockAt m c 2 t)
  Φ _ := Pipeline.ΦA spec0 c
  q _ := fullShare
  owed _ := 0

theorem dats_A (c : Dev nD) (w : Fin cfg0.W) : (dats m 0 c).A w = atEntry m c (Pipeline.arrRef spec0 w) := by
  dsimp only [dats]
theorem after_rows (c : Dev nD) (t : Fin cfg0.N) : (dats m 0 c).after 0 t = blockAt m c 0 t := by dsimp only [dats]
theorem after_cols (c : Dev nD) (t : Fin cfg0.N) : (dats m 0 c).after 1 t = blockAt m c 1 t := by dsimp only [dats]
theorem after_bias (c : Dev nD) (t : Fin cfg0.N) : (dats m 0 c).after 2 t = blockAt m c 2 t := by dsimp only [dats]
theorem after_out (c : Dev nD) (t : Fin cfg0.N) :
    (dats m 0 c).after 3 t = tile (blockAt m c 0 t) (blockAt m c 1 t) (blockAt m c 2 t) := by dsimp only [dats]

theorem before_rows (c : Dev nD) (t : Fin cfg0.N) (d) : (dats m 0 c).before 0 t d = blockAt m c 0 t :=
  rows_staged m (dats m 0 c) (dats_A m c 0) (after_rows m c) t d
theorem before_cols (c : Dev nD) (t : Fin cfg0.N) (d) : (dats m 0 c).before 1 t d = blockAt m c 1 t :=
  cols_staged m (dats m 0 c) (dats_A m c 1) (after_cols m c) t d
theorem before_bias (c : Dev nD) (t : Fin cfg0.N) (d) : (dats m 0 c).before 2 t d = blockAt m c 2 t :=
  bias_staged m (dats m 0 c) (dats_A m c 2) (after_bias m c) t d

/-! ## The body obligation -/

/-- What the pipeline hands the body at point `t`, the four windows written out, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it expects back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At every point the three input buffers hold their blocks, so the body's triple applies; the invariant and what
    the core owes pass through untouched. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [before_rows, before_cols, before_bias]
  rw [show (dats m 0 c).Φ t.succ = (dats m 0 c).Φ t.castSucc from rfl,
    show (dats m 0 c).owesAt () t.succ = (dats m 0 c).owesAt () t.castSucc from rfl,
    after_rows, after_cols, after_bias, after_out]
  iintro ⟨HΦ, Ho, ⟨%d0, H0⟩, ⟨%d1, H1⟩, ⟨%d2, H2⟩, ⟨%d3, H3⟩⟩
  iapply (body_spec c Set.univ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) :
    BodyObligation (dats (F := F) m 0 c) (defs₀ (F := F)) Variants.none () Set.univ := fun t => by
  rw [bigSep_W0, bigSep_W0]
  exact body_at_point m c t

/-! ## The run, and the frame -/

set_option backward.isDefEq.respectTransparency.types false in
/-- From any memory with zero counters every weakly fair execution of @main terminates without a fault, each array the
    region stages ending at what the write-backs of the proof data make of it and every other unscoped buffer as the
    region found it. -/
theorem run_main :
    θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_reaches_region m Variants.none) (hA := dats_A m)
    (hΦ := fun _ _ => rfl)

/-- The six argument arrays are staged by no window and written by no host operation: they end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (atEntry_arg0 m c),
     ((h c).2 main_arg1 (Pipeline.mem_restRefs_of main_arg1 (by decide) (by decide))).trans (atEntry_arg1 m c),
     ((h c).2 main_arg2 (Pipeline.mem_restRefs_of main_arg2 (by decide) (by decide))).trans (atEntry_arg2 m c),
     ((h c).2 main_arg3 (Pipeline.mem_restRefs_of main_arg3 (by decide) (by decide))).trans (atEntry_arg3 m c),
     ((h c).2 main_arg4 (Pipeline.mem_restRefs_of main_arg4 (by decide) (by decide))).trans (atEntry_arg4 m c),
     ((h c).2 main_arg5 (Pipeline.mem_restRefs_of main_arg5 (by decide) (by decide))).trans (atEntry_arg5 m c)⟩)
    (run_main m ρ)

end Cert.Kernel.Region

end
-- ==== Proof.KernelIdealFrame.lean ====
/-
  The frame of `KernelIdeal`: the program runs to its end without a fault and leaves its six argument arrays as it found
  them, at any float instance.

  @main is fourteen host operations — three negations and five concatenations that lay the four 1024x1024 quaternion
  components out as the 4096x4096 Hamilton block matrix, a change of float format of the input rows and of that
  matrix, and the bias re-read as one row — followed by one region on a 16 x 8 grid.  None of the host operations
  writes an argument array, and the region stages only arrays the host operations produced (the re-formatted rows,
  the re-formatted matrix, the bias row) and its own result; so every argument array is, at the end, what the region
  found, which is what the program was launched with.

  At grid point (i, j) the body reads the i-th block of 512 rows, the j-th block of 512 columns and the j-th block of
  512 bias entries, and stores one 512x512 tile covering its output block: the product of the two blocks plus the
  bias row repeated down the tile.  The tile is named here as a function of the three blocks read, for the value
  argument to open later.
-/
import proofs.«108264_j31138512896843_1_alg».proof.Proof.Gen.KernelIdeal.Launch
import proofs.«108264_j31138512896843_1_alg».proof.Proof.Gen.KernelIdeal.Skeleton
import proofs.«108264_j31138512896843_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## From the launch to the region -/

/-- What core `c`'s buffers hold when the region is entered: the launch contents after the fourteen host operations. -/
abbrev atEntry (c : Dev nD) (b : Ref sig .tc) : Buf (Elt F) ((c : Thread nD τ).loc b) :=
  StableHlo.after hostOps0 (fun b => m (c, b)) b

/-- No host operation allocates. -/
theorem hostOps_allocate_nothing : (hostOps0 : List (HloOp τ sig (Elt F))).Forall fun op => op.fresh = ∅ := by
  simp only [List.Forall]; repeat' constructor

/-- @main is the host operations, then the region, which therefore starts from `atEntry`. -/
theorem main_reaches_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps_allocate_nothing main_chain

/-- A buffer that is the result of none of the fourteen host operations is found by the region as launched. -/
theorem atEntry_of_not_result (c : Dev nD) (b : Ref sig .tc)
    (h : ∀ op ∈ (hostOps0 : List (HloOp τ sig (Elt F))), Proc.devRef .tc b ∉ op.writes) :
    atEntry m c b = m ((c : Thread nD τ).loc b) :=
  StableHlo.after_of_forall_not_mem (b := Proc.devRef .tc b) _ _ h

/-! ## The argument arrays at the region's entry -/

/-- Decides that a given argument array is the result of no host operation: each operation writes exactly its
    result buffer, and that buffer is never an argument. -/
local macro "not_a_host_result" : tactic => `(tactic| (
  refine List.forall_iff_forall_mem.mp ?_
  simp only [hostOps0, List.Forall, StableHlo.unary_writes, StableHlo.nary_writes, StableHlo.reshape_writes,
    Finset.mem_singleton]
  repeat' apply And.intro
  all_goals exact StableHlo.devRef_ne_of_ne (by decide)))

theorem atEntry_arg0 (c : Dev nD) : atEntry m c main_arg0 = m ((c : Thread nD τ).loc main_arg0) :=
  atEntry_of_not_result m c main_arg0 (by not_a_host_result)
theorem atEntry_arg1 (c : Dev nD) : atEntry m c main_arg1 = m ((c : Thread nD τ).loc main_arg1) :=
  atEntry_of_not_result m c main_arg1 (by not_a_host_result)
theorem atEntry_arg2 (c : Dev nD) : atEntry m c main_arg2 = m ((c : Thread nD τ).loc main_arg2) :=
  atEntry_of_not_result m c main_arg2 (by not_a_host_result)
theorem atEntry_arg3 (c : Dev nD) : atEntry m c main_arg3 = m ((c : Thread nD τ).loc main_arg3) :=
  atEntry_of_not_result m c main_arg3 (by not_a_host_result)
theorem atEntry_arg4 (c : Dev nD) : atEntry m c main_arg4 = m ((c : Thread nD τ).loc main_arg4) :=
  atEntry_of_not_result m c main_arg4 (by not_a_host_result)
theorem atEntry_arg5 (c : Dev nD) : atEntry m c main_arg5 = m ((c : Thread nD τ).loc main_arg5) :=
  atEntry_of_not_result m c main_arg5 (by not_a_host_result)

/-! ## Blocks -/

/-- The block of window `w`'s array that grid point `t` addresses, read off the array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (atEntry m c (Pipeline.arrRef spec0 w))

/-! ## The tile the body stores -/

abbrev rowsRect : Rect S512x4096 := Rect.unit (s := S512x4096) ![0, 0] S512x4096.size inb_S512x4096_S512x4096_0_0
abbrev colsRect : Rect S4096x512 := Rect.unit (s := S4096x512) ![0, 0] S4096x512.size inb_S4096x512_S4096x512_0_0
abbrev biasRect : Rect S1x512 := Rect.unit (s := S1x512) ![0, 0] S1x512.size inb_S1x512_S1x512_0_0
abbrev tileRect : Rect S512x512 := Rect.unit (s := S512x512) ![0, 0] S512x512.size inb_S512x512_S512x512_0_0

/-- The output buffer after the body, as a function of the three blocks it read: one store of the whole tile, the
    product of the row block and the column block plus the bias row. -/
def tile (rows : Vec F S512x4096 .bf16) (cols : Vec F S4096x512 .bf16) (bias : Vec F S1x512 .f32) : Vec F S512x512 .f32 :=
  View.canon [⟨tileRect, k0_pay1 (View.ld rows rowsRect) (View.ld cols colsRect) (View.ld bias biasRect)⟩]

/-- That one store covers the buffer. -/
theorem tile_covers (p : Vec F S512x512 .f32) (y : S512x512.Idx) :
    ∃ pc ∈ ([⟨tileRect, p⟩] : List (View.Piece (Elt F) S512x512 .f32)), y ∈ pc.1.set :=
  View.cover_of_tiled [⟨tileRect, p⟩] S512x512.size (by rfl) y

/-! ## The body -/

set_option maxHeartbeats 1000000 in
/-- The body, on whole staging buffers holding `rows`, `cols`, `bias` and anything in the output's, returns with the
    three inputs as they were and the output's buffer holding `tile rows cols bias`. -/
theorem body_spec (c : Dev nD) (E : Set ℕ) (i : grid0.Coords)
    (arg2 : Memref sig .tc .vmem S512x4096 .bf16) (harg2 : arg2.IsWhole)
    (arg3 : Memref sig .tc .vmem S4096x512 .bf16) (harg3 : arg3.IsWhole)
    (arg4 : Memref sig .tc .vmem S1x512 .f32) (harg4 : arg4.IsWhole)
    (arg5 : Memref sig .tc .vmem S512x512 .f32) (harg5 : arg5.IsWhole)
    (rows : Vec F S512x4096 .bf16) (cols : Vec F S4096x512 .bf16) (bias : Vec F S1x512 .f32) (K : PUnit → sProp 𝕄) :
    iprop(owns (c : Thread nD τ) arg2 fullShare rows ∗ owns (c : Thread nD τ) arg3 fullShare cols
        ∗ owns (c : Thread nD τ) arg4 fullShare bias ∗ (∃ d, owns (c : Thread nD τ) arg5 fullShare d)
        ∗ (iprop(owns (c : Thread nD τ) arg2 fullShare rows ∗ owns (c : Thread nD τ) arg3 fullShare cols
            ∗ owns (c : Thread nD τ) arg4 fullShare bias ∗ owns (c : Thread nD τ) arg5 fullShare (tile rows cols bias)) -∗ K ⟨⟩))
      ⊢ wp frame (wpE (defs₀ (F := F)) Variants.none c none) E
          (cc0__matmul_bias_kernel i arg2 harg2 arg3 harg3 arg4 harg4 arg5 harg5) K := by
  simp only [cc0__matmul_bias_kernel_eq_skeleton]; unfold cc0__matmul_bias_kernel_skel
  unfold owns
  iintro ⟨⟨%f2, %hf2, H2⟩, ⟨%f3, %hf3, H3⟩, ⟨%f4, %hf4, H4⟩, ⟨%d5, %f5, -, H5⟩, Hk⟩
  subst hf2 hf3 hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_covers _)

/-! ## The proof data of the pipeline -/

/-- An input window's current staging buffer holds the window's block at every point, whether the point fetched it or
    kept it from the point before (an unfetched block's index has not moved): for any proof data over the entry
    contents whose body leaves the block in place. The three input windows are uncut and never idle. -/
theorem rows_staged {c : Dev nD} (dat : Dat τ (Elt F) Unit ℕ (UR sig nD τ) ℕ cfg0 c)
    (hA : dat.A 0 = atEntry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)
theorem cols_staged {c : Dev nD} (dat : Dat τ (Elt F) Unit ℕ (UR sig nD τ) ℕ cfg0 c)
    (hA : dat.A 1 = atEntry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)
theorem bias_staged {c : Dev nD} (dat : Dat τ (Elt F) Unit ℕ (UR sig nD τ) ℕ cfg0 c)
    (hA : dat.A 2 = atEntry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)

/-- The pipeline's proof data on core `c`: the arrays as the region finds them; after the body at point `t` each input
    buffer still at its block and the output buffer at the tile of the three blocks; the invariant is the scoped rest
    and the generator register, which the body never touches; full shares, nothing owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => tile (blockAt m c 0 t) (blockAt m c 1 t) (blockAt m c 2 t)
  Φ _ := Pipeline.ΦA spec0 c
  q _ := fullShare
  owed _ := 0

theorem dats_A (c : Dev nD) (w : Fin cfg0.W) : (dats m 0 c).A w = atEntry m c (Pipeline.arrRef spec0 w) := by
  dsimp only [dats]
theorem after_rows (c : Dev nD) (t : Fin cfg0.N) : (dats m 0 c).after 0 t = blockAt m c 0 t := by dsimp only [dats]
theorem after_cols (c : Dev nD) (t : Fin cfg0.N) : (dats m 0 c).after 1 t = blockAt m c 1 t := by dsimp only [dats]
theorem after_bias (c : Dev nD) (t : Fin cfg0.N) : (dats m 0 c).after 2 t = blockAt m c 2 t := by dsimp only [dats]
theorem after_out (c : Dev nD) (t : Fin cfg0.N) :
    (dats m 0 c).after 3 t = tile (blockAt m c 0 t) (blockAt m c 1 t) (blockAt m c 2 t) := by dsimp only [dats]

theorem before_rows (c : Dev nD) (t : Fin cfg0.N) (d) : (dats m 0 c).before 0 t d = blockAt m c 0 t :=
  rows_staged m (dats m 0 c) (dats_A m c 0) (after_rows m c) t d
theorem before_cols (c : Dev nD) (t : Fin cfg0.N) (d) : (dats m 0 c).before 1 t d = blockAt m c 1 t :=
  cols_staged m (dats m 0 c) (dats_A m c 1) (after_cols m c) t d
theorem before_bias (c : Dev nD) (t : Fin cfg0.N) (d) : (dats m 0 c).before 2 t d = blockAt m c 2 t :=
  bias_staged m (dats m 0 c) (dats_A m c 2) (after_bias m c) t d

/-! ## The body obligation -/

/-- What the pipeline hands the body at point `t`, the four windows written out, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it expects back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At every point the three input buffers hold their blocks, so the body's triple applies; the invariant and what
    the core owes pass through untouched. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [before_rows, before_cols, before_bias]
  rw [show (dats m 0 c).Φ t.succ = (dats m 0 c).Φ t.castSucc from rfl,
    show (dats m 0 c).owesAt () t.succ = (dats m 0 c).owesAt () t.castSucc from rfl,
    after_rows, after_cols, after_bias, after_out]
  iintro ⟨HΦ, Ho, ⟨%d0, H0⟩, ⟨%d1, H1⟩, ⟨%d2, H2⟩, ⟨%d3, H3⟩⟩
  iapply (body_spec c Set.univ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) :
    BodyObligation (dats (F := F) m 0 c) (defs₀ (F := F)) Variants.none () Set.univ := fun t => by
  rw [bigSep_W0, bigSep_W0]
  exact body_at_point m c t

/-! ## The run, and the frame -/

set_option backward.isDefEq.respectTransparency.types false in
/-- From any memory with zero counters every weakly fair execution of @main terminates without a fault, each array the
    region stages ending at what the write-backs of the proof data make of it and every other unscoped buffer as the
    region found it. -/
theorem run_main :
    θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_reaches_region m Variants.none) (hA := dats_A m)
    (hΦ := fun _ _ => rfl)

/-- The six argument arrays are staged by no window and written by no host operation: they end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (atEntry_arg0 m c),
     ((h c).2 main_arg1 (Pipeline.mem_restRefs_of main_arg1 (by decide) (by decide))).trans (atEntry_arg1 m c),
     ((h c).2 main_arg2 (Pipeline.mem_restRefs_of main_arg2 (by decide) (by decide))).trans (atEntry_arg2 m c),
     ((h c).2 main_arg3 (Pipeline.mem_restRefs_of main_arg3 (by decide) (by decide))).trans (atEntry_arg3 m c),
     ((h c).2 main_arg4 (Pipeline.mem_restRefs_of main_arg4 (by decide) (by decide))).trans (atEntry_arg4 m c),
     ((h c).2 main_arg5 (Pipeline.mem_restRefs_of main_arg5 (by decide) (by decide))).trans (atEntry_arg5 m c)⟩)
    (run_main m ρ)

end Cert.KernelIdeal.Region

end
-- ==== Proof.TileValue.lean ====
/-
  The tile the body stores, read at an entry: entry (p, q) of the 512x512 tile is row p of the row block against
  column q of the column block — the matrix unit's product into a zero accumulator, which on the extended reals is
  the plain sum over the 4096 contracted positions — plus entry q of the bias row, the row having been repeated down
  the tile's 512 rows.  The changes of shape in the body are to the same shape and do nothing.
-/
import proofs.«108264_j31138512896843_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- The product's left operand is read at the output's row: axis 0 of the row block is not contracted. -/
theorem lhs_row (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide),
    dif_pos (show (0 : Fin S512x4096.rank) ∈ dot_S512x4096_S4096x512_S512x512_1_0_0_1_n_n.lhsNonContracting by decide)]
  rfl
/-- and at the contracted position on its axis 1; -/
theorem lhs_contr (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
/-- the right operand at the contracted position on its axis 0 -/
theorem rhs_contr (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
/-- and at the output's column: axis 1 of the column block is not contracted. -/
theorem rhs_col (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide),
    dif_pos (show (1 : Fin S4096x512.rank) ∈ dot_S512x4096_S4096x512_S512x512_1_0_0_1_n_n.rhsNonContracting by decide)]
  rfl

/-- The matrix unit's product into the zero accumulator, at entry (p, q): the sum over k of rows[p, k] * cols[k, q]. -/
theorem product_apply (rows : FVec Ideal S512x4096 .bf16) (cols : FVec Ideal S4096x512 .bf16) (p q : Fin 512) :
    matmul dot_S512x4096_S4096x512_S512x512_1_0_0_1_n_n none rows cols (constant (F := Ideal) S512x512 .f32 0x00000000#32) (ix2 p q)
      = ∑ k : Fin 4096, rows (ix2 p k) * cols (ix2 k q) := by
  simp only [matmul]
  rw [Ideal.matmul_constant_zero_apply,
    ← Equiv.sum_comp (contrEquiv1 dot_S512x4096_S4096x512_S512x512_1_0_0_1_n_n 4096 rfl rfl).symm]
  refine Finset.sum_congr rfl fun k _ => ?_
  have hk := contrEquiv1_symm_val dot_S512x4096_S4096x512_S512x512_1_0_0_1_n_n 4096 rfl rfl k
  have el : dot_S512x4096_S4096x512_S512x512_1_0_0_1_n_n.lhsIdx (ix2 p q) ((contrEquiv1 dot_S512x4096_S4096x512_S512x512_1_0_0_1_n_n 4096 rfl rfl).symm k) = ix2 p k :=
    funext fun a => Fin.ext (by
      match a with
      | ⟨0, _⟩ => exact lhs_row _ _
      | ⟨1, _⟩ => exact (lhs_contr _ _).trans hk)
  have er : dot_S512x4096_S4096x512_S512x512_1_0_0_1_n_n.rhsIdx (ix2 p q) ((contrEquiv1 dot_S512x4096_S4096x512_S512x512_1_0_0_1_n_n 4096 rfl rfl).symm k) = ix2 k q :=
    funext fun a => Fin.ext (by
      match a with
      | ⟨0, _⟩ => exact (rhs_contr _ _).trans hk
      | ⟨1, _⟩ => exact rhs_col _ _)
  rw [el, er]

/-- The bias row repeated down the tile, at entry (p, q): entry q of the row. -/
theorem bias_rows_apply (bias : FVec Ideal S1x512 .f32) (p q : Fin 512) :
    broadcastTo S512x512 bias broadcasts_S1x512_S512x512 (ix2 p q) = bias (ix2 0 q) :=
  broadcastTo_apply bias broadcasts_S1x512_S512x512 (ix2 p q) (ix2 0 q) (fun a => by
    match a with
    | ⟨0, _⟩ => show 0 = if (1 : Nat) = 1 then 0 else p.val; rw [if_pos rfl]
    | ⟨1, _⟩ => show q.val = if (512 : Nat) = 1 then 0 else q.val; rw [if_neg (by decide)])

/-- The stored payload at entry (p, q). -/
theorem payload_apply (rows : Vec Ideal S512x4096 .bf16) (cols : Vec Ideal S4096x512 .bf16) (bias : Vec Ideal S1x512 .f32)
    (p q : Fin 512) :
    k0_pay1 (F := Ideal) rows cols bias (ix2 p q)
      = (∑ k : Fin 4096, rows (ix2 p k) * cols (ix2 k q)) + bias (ix2 0 q) := by
  unfold k0_pay1
  show addf (matmul dot_S512x4096_S4096x512_S512x512_1_0_0_1_n_n none (shapeCast S512x4096 rows shapeCasts_S512x4096_S512x4096)
      (shapeCast S4096x512 cols shapeCasts_S4096x512_S4096x512) (constant (F := Ideal) S512x512 .f32 0x00000000#32))
    (broadcastTo S512x512 (shapeCast S1x512 bias shapeCasts_S1x512_S1x512) broadcasts_S1x512_S512x512) (ix2 p q) = _
  rw [addf_apply, shapeCast_self, shapeCast_self, shapeCast_self, product_apply, bias_rows_apply]

end Cert.KernelIdeal.Tile

end
-- ==== Proof.AffineSpec.lean ====
/-
  What both programs compute, as one function of the arrays: the affine map

      out[r, n] = (sum over k < 4096 of x[r, k] * W[k, n]) + b[n]        r < 8192, n < 4096

  on the extended reals, where W is the 4096x4096 Hamilton block matrix of the four quaternion components.  W is kept
  as an opaque array here: both programs build it by the same negations and concatenations, so nothing below depends
  on what it holds.  No law of the extended reals is needed to join the two sides: each writes exactly this sum, the
  kernel tile by tile and the reference in one product.
-/
import Idealize.ShloMosaic.PureOps.Ideal
import Idealize.ShloMosaic.Lib.ValueIdx

noncomputable section

namespace Cert.QuaternionLinear

open Idealize.ShloMosaic Idealize.ShloMosaic.ValueIdx

/-- Row `r` of `x` against column `n` of `W`, plus entry `n` of the bias. -/
def affine (x : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun i => (∑ k : Fin 4096, x (ix2 (i 0) k) * W (ix2 k (i 1))) + b (ix1 (i 1))

theorem affine_apply (x : (⟨2, ![8192, 4096]⟩ : Shape).Idx → EReal) (W : (⟨2, ![4096, 4096]⟩ : Shape).Idx → EReal)
    (b : (⟨1, ![4096]⟩ : Shape).Idx → EReal) (r : Fin 8192) (n : Fin 4096) :
    affine x W b (ix2 r n) = (∑ k : Fin 4096, x (ix2 r k) * W (ix2 k n)) + b (ix1 n) := rfl

end Cert.QuaternionLinear

end
-- ==== Proof.KernelValue.lean ====
/-
  What the idealized kernel's result array holds after the run, as one function of the argument arrays.

  The region stages three arrays the host operations wrote.  Read on the extended reals they are: the input rows
  themselves (a change of float format is the identity); the Hamilton block matrix of the four quaternion components
  (again re-formatted, so itself); and the bias as a single row, whose entry (0, n) is bias entry n.

  At grid point t = (i, j) the row window's block is rows 512 i .. 512 i + 511 (all 4096 columns), the column
  window's block is columns 512 j .. 512 j + 511 (all 4096 rows), the bias window's block is those same columns of
  the one row, and the output window's block is the 512x512 tile at (512 i, 512 j).  Entry (p, q) of the stored
  tile is row p of the row block against column q of the column block plus bias entry q of the block, which is the
  affine map at (512 i + p, 512 j + q).  The 16 x 8 tiles cover the 8192 x 4096 result, every one is written back,
  so the array ends as the affine map of the arguments.
-/
import proofs.«108264_j31138512896843_1_alg».proof.Proof.KernelIdealFrame
import proofs.«108264_j31138512896843_1_alg».proof.Proof.TileValue
import proofs.«108264_j31138512896843_1_alg».proof.Proof.AffineSpec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Affine

open Cert.KernelIdeal Cert.KernelIdeal.Gen Cert.KernelIdeal.Region Cert.QuaternionLinear
open Idealize.ShloMosaic Idealize.ShloMosaic.TcCoe Idealize.SL.Sem Idealize.ShloMosaic.StableHlo Idealize.ShloMosaic.ValueIdx
open Idealize.ShloMosaic.Pipeline (Dat)

/-! ## The arrays the region stages -/

/-- The Hamilton block matrix of the components r, i, j, k: four column groups, each four row blocks,
    [r, -i, -j, -k | i, r, -k, j | j, k, r, -i | k, -j, i, r] read down each group. -/
def hamilton {F : FTy → Type} [FloatOps F] (r i j k : FVec F S1024x1024 .f32) : FVec F S4096x4096 .f32 :=
  concatenate S4096x4096 1
    [⟨S4096x1024, concatenate S4096x1024 0 [⟨S1024x1024, r⟩, ⟨S1024x1024, Host.negf i⟩, ⟨S1024x1024, Host.negf j⟩, ⟨S1024x1024, Host.negf k⟩] concatenates_S1024x1024_S1024x1024_S1024x1024_S1024x1024_S4096x1024_d0⟩,
     ⟨S4096x1024, concatenate S4096x1024 0 [⟨S1024x1024, i⟩, ⟨S1024x1024, r⟩, ⟨S1024x1024, Host.negf k⟩, ⟨S1024x1024, j⟩] concatenates_S1024x1024_S1024x1024_S1024x1024_S1024x1024_S4096x1024_d0⟩,
     ⟨S4096x1024, concatenate S4096x1024 0 [⟨S1024x1024, j⟩, ⟨S1024x1024, k⟩, ⟨S1024x1024, r⟩, ⟨S1024x1024, Host.negf i⟩] concatenates_S1024x1024_S1024x1024_S1024x1024_S1024x1024_S4096x1024_d0⟩,
     ⟨S4096x1024, concatenate S4096x1024 0 [⟨S1024x1024, k⟩, ⟨S1024x1024, Host.negf j⟩, ⟨S1024x1024, i⟩, ⟨S1024x1024, r⟩] concatenates_S1024x1024_S1024x1024_S1024x1024_S1024x1024_S4096x1024_d0⟩]
    concatenates_S4096x1024_S4096x1024_S4096x1024_S4096x1024_S4096x4096_d1

variable (m : (ℓ : Loc nD τ sig) → Buf (Elt Ideal) ℓ) (ρ : Dev nD → PrngReg)

/-- The staged rows are the input rows. -/
theorem entry_rows (c : Dev nD) :
    (atEntry m c main_v11 : S8192x4096.Idx → EReal) = m ((c : Thread nD τ).loc main_arg0) := by
  dsimp only [atEntry, hostOps0]
  after_results <;> rfl

set_option maxHeartbeats 1500000 in
/-- The staged matrix is the Hamilton matrix of the four components. -/
theorem entry_matrix (c : Dev nD) :
    (atEntry m c main_v12 : S4096x4096.Idx → EReal)
      = hamilton (F := Ideal) (m ((c : Thread nD τ).loc main_arg1)) (m ((c : Thread nD τ).loc main_arg2))
          (m ((c : Thread nD τ).loc main_arg3)) (m ((c : Thread nD τ).loc main_arg4)) := by
  dsimp only [atEntry, hostOps0]
  after_results <;> rfl

/-- The staged bias is the bias re-read as one row. -/
theorem entry_bias (c : Dev nD) :
    (atEntry m c main_v13 : S1x4096.Idx → EReal)
      = shapeCast S1x4096 (m ((c : Thread nD τ).loc main_arg5)) shapeCasts_S4096_S1x4096 := by
  dsimp only [atEntry, hostOps0]
  after_results <;> rfl

/-- Entry (0, n) of that row is bias entry n. -/
theorem entry_bias_apply (c : Dev nD) (n : Fin 4096) :
    atEntry m c main_v13 (ix2 0 n) = m ((c : Thread nD τ).loc main_arg5) (ix1 n) := by
  rw [entry_bias]
  exact shapeCast_apply _ _ (ix2 0 n) (ix1 n) (by
    rw [Shape.rowMajor_val_one, Shape.rowMajor_val_two]
    show n.val = 0 * 4096 + n.val
    omega)

/-! ## One grid point -/

/-- The result array as a function of the arguments: the affine map of the input rows, the Hamilton matrix and the bias. -/
abbrev result (c : Dev nD) : S8192x4096.Idx → EReal :=
  affine (m ((c : Thread nD τ).loc main_arg0))
    (hamilton (F := Ideal) (m ((c : Thread nD τ).loc main_arg1)) (m ((c : Thread nD τ).loc main_arg2))
      (m ((c : Thread nD τ).loc main_arg3)) (m ((c : Thread nD τ).loc main_arg4)))
    (m ((c : Thread nD τ).loc main_arg5))

/-- The arithmetic of one point, over plain arrays: if the three blocks are the arrays `X`, `W`, `B` read where the
    point (i, j) reads them — rows 512 i + ·, all columns; all rows, columns 512 j + ·; row 0, columns 512 j + · — and
    the one-row `B` is the bias `b`, then the stored tile at `y` is the affine map at (512 i + y 0, 512 j + y 1). -/
theorem point_value
    (X : S8192x4096.Idx → EReal) (W : S4096x4096.Idx → EReal) (B : S1x4096.Idx → EReal) (b : S4096.Idx → EReal)
    (hB : ∀ n : Fin 4096, B (ix2 0 n) = b (ix1 n))
    (rows : Vec Ideal S512x4096 .bf16) (cols : Vec Ideal S4096x512 .bf16) (bias : Vec Ideal S1x512 .f32)
    (er : S512x4096.Idx → S8192x4096.Idx) (ec : S4096x512.Idx → S4096x4096.Idx) (eb : S1x512.Idx → S1x4096.Idx)
    (eo : S512x512.Idx → S8192x4096.Idx)
    (hrows : rows = fun y => X (er y)) (hcols : cols = fun y => W (ec y)) (hbias : bias = fun y => B (eb y))
    (i j : Nat)
    (her0 : ∀ y, (er y 0).val = i * 512 + (y 0).val) (her1 : ∀ y, (er y 1).val = (y 1).val)
    (hec0 : ∀ y, (ec y 0).val = (y 0).val) (hec1 : ∀ y, (ec y 1).val = j * 512 + (y 1).val)
    (heb0 : ∀ y, (eb y 0).val = 0) (heb1 : ∀ y, (eb y 1).val = j * 512 + (y 1).val)
    (heo0 : ∀ y, (eo y 0).val = i * 512 + (y 0).val) (heo1 : ∀ y, (eo y 1).val = j * 512 + (y 1).val)
    (y : S512x512.Idx) :
    k0_pay1 (F := Ideal) rows cols bias y = affine X W b (eo y) := by
  subst hrows hcols hbias
  obtain ⟨p, q, rfl⟩ : ∃ (p q : Fin 512), y = ix2 p q := ⟨y 0, y 1, eq_ix2 y⟩
  obtain ⟨r, n, hrn⟩ : ∃ (r : Fin 8192) (n : Fin 4096), eo (ix2 p q) = ix2 r n :=
    ⟨eo (ix2 p q) 0, eo (ix2 p q) 1, eq_ix2 _⟩
  have hr0 : r.val = i * 512 + p.val := by have h := heo0 (ix2 p q); rw [hrn] at h; exact h
  have hn1 : n.val = j * 512 + q.val := by have h := heo1 (ix2 p q); rw [hrn] at h; exact h
  rw [Tile.payload_apply, hrn, affine_apply]
  have hr : ∀ k : Fin 4096, er (ix2 p k) = ix2 r k := fun k =>
    funext fun a => Fin.ext (by
      match a with
      | ⟨0, _⟩ => exact (her0 (ix2 p k)).trans hr0.symm
      | ⟨1, _⟩ => exact her1 (ix2 p k))
  have hc : ∀ k : Fin 4096, ec (ix2 k q) = ix2 k n := fun k =>
    funext fun a => Fin.ext (by
      match a with
      | ⟨0, _⟩ => exact hec0 (ix2 k q)
      | ⟨1, _⟩ => exact (hec1 (ix2 k q)).trans hn1.symm)
  have hb : eb (ix2 0 q) = ix2 0 n :=
    funext fun a => Fin.ext (by
      match a with
      | ⟨0, _⟩ => exact heb0 (ix2 0 q)
      | ⟨1, _⟩ => exact (heb1 (ix2 0 q)).trans hn1.symm)
  simp only [hr, hc, hb, hB]

/-! ## The index maps over the grid -/

theorem zeros : (![0, 0] : Fin 2 → Nat) = fun _ => 0 := funext fun a => by fin_cases a <;> rfl

/-- Decided over the 128 points: the row window moves with the output's row-block index and stays at column block 0;
    the column and bias windows stay at row block 0 and move with the output's column-block index; the output's
    block indices stay below 16 and 8. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 15 ∧ win0_3.index t (1 : Fin 2) ≤ 7 :=
  (by decide +kernel : ∀ t : Fin grid0.N, _)

/-- Every one of the 16 x 8 output blocks is some point's. -/
theorem index_onto : ∀ (q0 : Fin 16) (q1 : Fin 8), ∃ t : Fin cfg0.N, win0_3.index t = ![q0.val, q1.val] :=
  (by decide +kernel : ∀ (q0 : Fin 16) (q1 : Fin 8), ∃ t : Fin grid0.N, win0_3.index t = ![q0.val, q1.val])

/-! ## What a point writes back, and the array after all of them -/

/-- Point `t` writes back block `t` of the result. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after_out]
  unfold tile
  rw [View.canon_unit_zero zeros]
  simp only [View.ld_unit_zero (S := S512x4096) zeros, View.ld_unit_zero (S := S4096x512) zeros,
    View.ld_unit_zero (S := S1x512) zeros]
  obtain ⟨e0, e1, e2, e3, e4, e5, -, -⟩ := index_facts t
  show (fun y : S512x512.Idx => k0_pay1 (F := Ideal) (blockAt m c 0 t) (blockAt m c 1 t) (blockAt m c 2 t) y)
    = fun y : S512x512.Idx => result m c (((cfg0.win 3).blk t).view.emb y)
  funext y
  refine point_value (m ((c : Thread nD τ).loc main_arg0))
    (hamilton (F := Ideal) (m ((c : Thread nD τ).loc main_arg1)) (m ((c : Thread nD τ).loc main_arg2))
      (m ((c : Thread nD τ).loc main_arg3)) (m ((c : Thread nD τ).loc main_arg4)))
    (atEntry m c main_v13) (m ((c : Thread nD τ).loc main_arg5)) (entry_bias_apply m c)
    (blockAt m c 0 t) (blockAt m c 1 t) (blockAt m c 2 t)
    ((cfg0.win 0).blk t).view.emb ((cfg0.win 1).blk t).view.emb ((cfg0.win 2).blk t).view.emb ((cfg0.win 3).blk t).view.emb
    ?_ ?_ ?_ (win0_3.index t (0 : Fin 2)) (win0_3.index t (1 : Fin 2)) ?_ ?_ ?_ ?_ ?_ ?_ ?_ ?_ y
  · show (fun y => atEntry m c main_v11 (((cfg0.win 0).blk t).view.emb y)) = _
    rw [entry_rows]
    rfl
  · show (fun y => atEntry m c main_v12 (((cfg0.win 1).blk t).view.emb y)) = _
    rw [entry_matrix]
    rfl
  · rfl
  · intro y; show win0_0.index t (0 : Fin 2) * 512 + 1 * (y 0).val = _; rw [e0]; omega
  · intro y; show win0_0.index t (1 : Fin 2) * 4096 + 1 * (y 1).val = _; rw [e1]; omega
  · intro y; show win0_1.index t (0 : Fin 2) * 4096 + 1 * (y 0).val = _; rw [e2]; omega
  · intro y; show win0_1.index t (1 : Fin 2) * 512 + 1 * (y 1).val = _; rw [e3]; omega
  · intro y; show win0_2.index t (0 : Fin 2) * 1 + 1 * (y 0).val = _; rw [e4]; have : (y 0).val < 1 := (y 0).isLt; omega
  · intro y; show win0_2.index t (1 : Fin 2) * 512 + 1 * (y 1).val = _; rw [e5]; omega
  · intro y; show win0_3.index t (0 : Fin 2) * 512 + 1 * (y 0).val = _; omega
  · intro y; show win0_3.index t (1 : Fin 2) * 512 + 1 * (y 1).val = _; omega

/-- An index of the result is in point `t`'s block iff each coordinate is in the block's range on its axis. -/
theorem mem_tile (t : Fin cfg0.N) (i : S8192x4096.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v14).slice (win0_3.rect t)).set ↔ _
  rw [View.set_slice_whole, Rect.mem_set_unit]
  exact Iff.rfl

/-- Every index of the result is in the block of a point that writes back: the point whose block indices are the
    coordinates divided by 512. -/
theorem tiles_cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := index_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_tile]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 512 ≤ (i 1).val ∧ (i 1).val < win0_3.index t (1 : Fin 2) * 512 + 512
    omega

/-- The result array after every write-back is the affine map of the arguments. -/
theorem final (c : Dev nD) : (dats m 0 c).arrAt 3 cfg0.N = result m c :=
  (dats m 0 c).arrAt_eq_of_cover 3 (result m c) (fun t _ => flushed_eq m c t) tiles_cover

/-! ## The run -/

/-- Every weakly fair execution of the idealized kernel terminates with the result array at the affine map of the
    argument arrays and the argument arrays unchanged. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).1 3).trans (final m c),
     ((h c).2 main_arg0 (Pipeline.mem_restRefs_of main_arg0 (by decide) (by decide))).trans (atEntry_arg0 m c),
     ((h c).2 main_arg1 (Pipeline.mem_restRefs_of main_arg1 (by decide) (by decide))).trans (atEntry_arg1 m c),
     ((h c).2 main_arg2 (Pipeline.mem_restRefs_of main_arg2 (by decide) (by decide))).trans (atEntry_arg2 m c),
     ((h c).2 main_arg3 (Pipeline.mem_restRefs_of main_arg3 (by decide) (by decide))).trans (atEntry_arg3 m c),
     ((h c).2 main_arg4 (Pipeline.mem_restRefs_of main_arg4 (by decide) (by decide))).trans (atEntry_arg4 m c),
     ((h c).2 main_arg5 (Pipeline.mem_restRefs_of main_arg5 (by decide) (by decide))).trans (atEntry_arg5 m c)⟩)
    (run_main m ρ)

end Cert.KernelIdeal.Affine

end
-- ==== Proof.ReferenceValue.lean ====
/-
  The reference computes the affine map: its result array, read at an index, is the host product of `x` and the
  Hamilton matrix there — the sum over the contracted axis of row entry times column entry — plus the bias entry of
  that column, the bias having been repeated first along a new leading axis of length one and then down the 8192 rows.
-/
import proofs.«108264_j31138512896843_1_alg».proof.Proof.Gen.ReferenceIdeal.Read
import proofs.«108264_j31138512896843_1_alg».proof.Proof.AffineSpec

noncomputable section

namespace Cert.ReferenceIdeal.Affine

open Cert.ReferenceIdeal Cert.ReferenceIdeal.Gen Idealize.ShloMosaic Idealize.ShloMosaic.ValueIdx
open Cert.QuaternionLinear

/-- The reference's last stage is the affine map of `x`, the matrix its concatenations build, and the bias. -/
theorem result_eq (x0 : FVec Ideal S8192x4096 .f32) (x1 x2 x3 x4 : FVec Ideal S1024x1024 .f32) (x5 : FVec Ideal S4096 .f32) :
    Read.val_main_v14 (F := Ideal) x0 x1 x2 x3 x4 x5 = affine x0 (Read.val_main_v10 (F := Ideal) x1 x2 x3 x4) x5 := by
  funext i
  have hl : ∀ k : Fin 4096, Read.lidx_main_v11 i k = ix2 (i 0) k := fun k =>
    funext fun a => Fin.ext (by match a with | ⟨0, _⟩ => rfl | ⟨1, _⟩ => rfl)
  have hr : ∀ k : Fin 4096, Read.ridx_main_v11 i k = ix2 k (i 1) := fun k =>
    funext fun a => Fin.ext (by match a with | ⟨0, _⟩ => rfl | ⟨1, _⟩ => rfl)
  have hb : Read.idx_main_v12 (Read.idx_main_v13 i) = ix1 (i 1) :=
    funext fun a => Fin.ext (by match a with | ⟨0, _⟩ => rfl)
  rw [Read.val_main_v14_apply, Read.val_main_v11_apply, Read.val_main_v13_apply, Read.val_main_v12_apply]
  simp only [hl, hr, hb, Ideal.addf_def]
  rfl

end Cert.ReferenceIdeal.Affine

end
-- ==== Proof.lean ====
/-
  The certificate of a quaternion linear layer: a Pallas matmul-plus-bias kernel against its jnp reference, equal on
  the extended reals.

  Both programs first lay the four 1024x1024 quaternion components r, i, j, k out as the 4096x4096 Hamilton block
  matrix W (so that x W is the Hamilton product of x with the quaternion weight), by the same three negations and
  five concatenations.  The reference then takes one host product x W of the 8192x4096 input with W and adds the bias
  to every row.  The kernel changes x and W to a narrower float format, re-reads the bias as one row, and runs a
  16 x 8 grid; point (i, j) multiplies a 512-row block of x by a 512-column block of W on the matrix unit, into a zero
  accumulator, adds the matching 512 bias entries to every row of the tile, and writes the 512x512 tile back.

  On the extended reals a change of float format is the identity, the matrix unit's product into zero is the plain
  sum over the 4096 contracted positions, and so is the host product: entry (r, n) of either result is
  (sum over k of x[r, k] W[k, n]) + b[n], one and the same term.  No law of the extended reals beyond 0 + s = s is
  used, and so the finiteness of the inputs is never needed; W is never opened, being the same term on both sides.

  The three frames: each kernel program's argument arrays are staged by no window of the region and written by no
  host operation, so they end as launched; the reference has no kernel and its frame is its run with the result dropped.  The idealization
  rewrote no operation, so there is nothing to preserve.
-/
import proofs.«108264_j31138512896843_1_alg».proof.Defs
import proofs.«108264_j31138512896843_1_alg».proof.Proof.Gen.Kernel
import proofs.«108264_j31138512896843_1_alg».proof.Proof.Gen.KernelIdeal
import proofs.«108264_j31138512896843_1_alg».proof.Proof.Gen.ReferenceIdeal
import proofs.«108264_j31138512896843_1_alg».proof.Proof.Gen.Pre_finite_inputs
import proofs.«108264_j31138512896843_1_alg».proof.Proof.Gen.ReferenceIdeal.Run
import proofs.«108264_j31138512896843_1_alg».proof.Proof.KernelFrame
import proofs.«108264_j31138512896843_1_alg».proof.Proof.KernelIdealFrame
import proofs.«108264_j31138512896843_1_alg».proof.Proof.KernelValue
import proofs.«108264_j31138512896843_1_alg».proof.Proof.ReferenceValue

noncomputable section

namespace Cert.Proof

open Idealize.ShloMosaic Idealize.ShloMosaic.TcCoe Idealize.SL.Sem

/-- The kernel's host operations and the reference's build the same Hamilton matrix: the same concatenations of
    the same components and negated components. -/
theorem hamilton_same (r i j k : FVec Ideal Cert.KernelIdeal.S1024x1024 .f32) :
    Cert.KernelIdeal.Affine.hamilton (F := Ideal) r i j k = Cert.ReferenceIdeal.Read.val_main_v10 (F := Ideal) r i j k := rfl

theorem frame_kernel : Cert.frame_Kernel := fun m ρ _ => Cert.Kernel.Region.frame m ρ

theorem frame_kernelIdeal : Cert.frame_KernelIdeal := fun m ρ _ => Cert.KernelIdeal.Region.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at the affine map of the arguments — the kernel tile by tile,
    the reference in one product — and the arguments agree. -/
theorem algebraic : Cert.algebraic_KernelIdeal_ReferenceIdeal := by
  intro m ρ m' ρ' _ hagree
  refine ⟨fun c => Cert.KernelIdeal.Affine.result m c, Cert.KernelIdeal.Affine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Affine.result_eq,
    (hagree c).1, (hagree c).2.1, (hagree c).2.2.1, (hagree c).2.2.2.1, (hagree c).2.2.2.2.1, (hagree c).2.2.2.2.2]
  show Cert.QuaternionLinear.affine _ (Cert.ReferenceIdeal.Read.val_main_v10 (F := Ideal) _ _ _ _) _
    = Cert.QuaternionLinear.affine _ (Cert.KernelIdeal.Affine.hamilton (F := Ideal) _ _ _ _) _
  rw [hamilton_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
